-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S32x4096x512 .f32) (main_arg1 : FVec F S32x512 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x4096x512 : Shape := ⟨3, ![32, 4096, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S32x1x512 : Shape := ⟨3, ![32, 1, 512]⟩
abbrev S32x4096x1 : Shape := ⟨3, ![32, 4096, 1]⟩
abbrev S1x1024x512 : Shape := ⟨3, ![1, 1024, 512]⟩
abbrev S1x1x512 : Shape := ⟨3, ![1, 1, 512]⟩
abbrev S1x1024x1 : Shape := ⟨3, ![1, 1024, 1]⟩
abbrev S1024x512 : Shape := ⟨2, ![1024, 512]⟩
abbrev S1024 : Shape := ⟨1, ![1024]⟩
abbrev S1024x1 : Shape := ⟨2, ![1024, 1]⟩
abbrev S1x1 : Shape := ⟨2, ![1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 34
  | .vmem => 10
  | .smem => 0
  | _ => 0

abbrev bufTy : (tb : Table) → Fin (tcTables nBuf tb) → BufTy
  | .hbm, ⟨0, _⟩ => ⟨S32x4096x512, .f32⟩
  | .hbm, ⟨1, _⟩ => ⟨S32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S32x512, .f32⟩
  | .hbm, ⟨9, _⟩ => ⟨S1x512, .f32⟩
  | .hbm, ⟨10, _⟩ => ⟨S32x512, .f32⟩
  | .hbm, ⟨11, _⟩ => ⟨S32x512, .f32⟩
  | .hbm, ⟨12, _⟩ => ⟨S32x1x512, .f32⟩
  | .hbm, ⟨13, _⟩ => ⟨S1x512, .f32⟩
  | .hbm, ⟨14, _⟩ => ⟨S32x4096x1, .f32⟩
  | .hbm, ⟨15, _⟩ => ⟨S_, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x1x1, .f32⟩
  | .hbm, ⟨21, _⟩ => ⟨S32x4096x1, .f32⟩
  | .hbm, ⟨22, _⟩ => ⟨S32x4096x1, .f32⟩
  | .hbm, ⟨23, _⟩ => ⟨S32x4096x1, .f32⟩
  | .hbm, ⟨24, _⟩ => ⟨S_, .f32⟩
  | .hbm, ⟨25, _⟩ => ⟨S32x1, .f32⟩
  | .hbm, ⟨26, _⟩ => ⟨S32x1x1, .f32⟩
  | .hbm, ⟨27, _⟩ => ⟨S32x4096x1, .f32⟩
  | .hbm, ⟨28, _⟩ => ⟨S32x4096x1, .f32⟩
  | .hbm, ⟨29, _⟩ => ⟨S32x4096x512, .f32⟩
  | .hbm, ⟨30, _⟩ => ⟨S32x4096x512, .f32⟩
  | .hbm, ⟨31, _⟩ => ⟨S32x4096x512, .f32⟩
  | .hbm, ⟨32, _⟩ => ⟨S_, .f32⟩
  | .hbm, ⟨33, _⟩ => ⟨S32x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S512, .f32⟩
  | .local _ .vmem, ⟨4, _⟩ => ⟨S1x1x512, .f32⟩
  | .local _ .vmem, ⟨5, _⟩ => ⟨S1x1x512, .f32⟩
  | .local _ .vmem, ⟨6, _⟩ => ⟨S1x512, .f32⟩
  | .local _ .vmem, ⟨7, _⟩ => ⟨S1, .f32⟩
  | .local _ .vmem, ⟨8, _⟩ => ⟨S1x1024x1, .f32⟩
  | .local _ .vmem, ⟨9, _⟩ => ⟨S1x1024x1, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x1x512_0_2 : S32x512.BroadcastsInDim S32x1x512 (![0, 2] : Fin 2 → Fin S32x1x512.rank)
  shapeCasts_S512x1_S1x512 : S512x1.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S1024_S1024x1 : S1024.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S32x4096x1_S32x1_d1 : S32x4096x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x4096x1_0_1_2 : S32x1x1.BroadcastsInDim S32x4096x1 (![0, 1, 2] : Fin 3 → Fin S32x4096x1.rank)
  bcast_S32x4096x1_S32x4096x512_0_1_2 : S32x4096x1.BroadcastsInDim S32x4096x512 (![0, 1, 2] : Fin 3 → Fin S32x4096x512.rank)
  bcast_S32x1x512_S32x4096x512_0_1_2 : S32x1x512.BroadcastsInDim S32x4096x512 (![0, 1, 2] : Fin 3 → Fin S32x4096x512.rank)
  reducesTo_S32x4096x512_S32x512_d1 : S32x4096x512.ReducesTo [1] S32x512
  dot_S32x512_S512x512_S32x512_1_0_0_1_n_n_wf : DotDims.WF S32x512 S512x512 S32x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x4096x512.size a
  hwx0_0 : ∀ i : grid0.Coords, EltTy.bits .f32 = 32 ∨ (Rect.block (s := S32x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S32x4096x1.size a
  hwx0_6 : ∀ i : grid0.Coords, EltTy.bits .f32 = 32 ∨ (Rect.block (s := S32x4096x1) S1x1024x1.size (cc0_transform_6 i) (hinb0_6 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1x512 : Shape := ⟨3, ![1, 1, 512]⟩
abbrev S1x512 : Shape := ⟨2, ![1, 512]⟩
abbrev S32x1x512 : Shape := ⟨3, ![32, 1, 512]⟩
abbrev S32x4096x1 : Shape := ⟨3, ![32, 4096, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S32x4096x512, .f32⟩
  | .hbm, ⟨9, _⟩ => ⟨S1x1x512, .f32⟩
  | .hbm, ⟨10, _⟩ => ⟨S32x4096x512, .f32⟩
  | .hbm, ⟨11, _⟩ => ⟨S32x4096x512, .f32⟩
  | .hbm, ⟨12, _⟩ => ⟨S32x512, .f32⟩
  | .hbm, ⟨13, _⟩ => ⟨S1x512, .f32⟩
  | .hbm, ⟨14, _⟩ => ⟨S32x512, .f32⟩
  | .hbm, ⟨15, _⟩ => ⟨S32x512, .f32⟩
  | .hbm, ⟨16, _⟩ => ⟨S32x1x512, .f32⟩
  | .hbm, ⟨17, _⟩ => ⟨S32x4096x512, .f32⟩
  | .hbm, ⟨18, _⟩ => ⟨S32x4096x512, .f32⟩
  | .hbm, ⟨19, _⟩ => ⟨S32x4096x512, .f32⟩
  | .hbm, ⟨20, _⟩ => ⟨S32x4096x1, .f32⟩
  | .hbm, ⟨21, _⟩ => ⟨S1x1x1, .f32⟩
  | .hbm, ⟨22, _⟩ => ⟨S32x4096x1, .f32⟩
  | .hbm, ⟨23, _⟩ => ⟨S32x4096x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x4096x1, .f32⟩
  | .hbm, ⟨31, _⟩ => ⟨S32x4096x1, .f32⟩
  | .hbm, ⟨32, _⟩ => ⟨S32x4096x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x4096x1, .f32⟩
  | .hbm, ⟨37, _⟩ => ⟨S32x4096x1, .f32⟩
  | .hbm, ⟨38, _⟩ => ⟨S32x4096x512, .f32⟩
  | .hbm, ⟨39, _⟩ => ⟨S32x4096x512, .f32⟩
  | .hbm, ⟨40, _⟩ => ⟨S32x4096x512, .f32⟩
  | .hbm, ⟨41, _⟩ => ⟨S_, .f32⟩
  | .hbm, ⟨42, _⟩ => ⟨S32x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x1x512_0_2 : S32x512.BroadcastsInDim S32x1x512 (![0, 2] : Fin 2 → Fin S32x1x512.rank)
  bcast_S32x1x512_S32x4096x512_0_1_2 : S32x1x512.BroadcastsInDim S32x4096x512 (![0, 1, 2] : Fin 3 → Fin S32x4096x512.rank)
  bcast_S1_S1x1x1_2 : S1.BroadcastsInDim S1x1x1 (![2] : Fin 1 → Fin S1x1x1.rank)
  bcast_S1x1x1_S32x4096x1_0_1_2 : S1x1x1.BroadcastsInDim S32x4096x1 (![0, 1, 2] : Fin 3 → Fin S32x4096x1.rank)
  reducesTo_S32x4096x1_S32x1_d1 : S32x4096x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x4096x1_0_1_2 : S32x1x1.BroadcastsInDim S32x4096x1 (![0, 1, 2] : Fin 3 → Fin S32x4096x1.rank)
  bcast_S32x4096x1_S32x4096x512_0_1_2 : S32x4096x1.BroadcastsInDim S32x4096x512 (![0, 1, 2] : Fin 3 → Fin S32x4096x512.rank)
  reducesTo_S32x4096x512_S32x512_d1 : S32x4096x512.ReducesTo [1] S32x512
  dot_S32x4096x512_S512x512_S32x4096x512_2_0_01_1_n_n_wf : DotDims.WF S32x4096x512 S512x512 S32x4096x512 [2] [0] [0, 1] [1] [] []
  dot_S32x512_S512x512_S32x512_1_0_0_1_n_n_wf : DotDims.WF S32x512 S512x512 S32x512 [1] [0] [0] [1] [] []
  dot_S32x4096x512_S512x1_S32x4096x1_2_0_01_1_n_n_wf : DotDims.WF S32x4096x512 S512x1 S32x4096x1 [2] [0] [0, 1] [1] [] []

variable [Facts₀]

def dot_S32x4096x512_S512x512_S32x4096x512_2_0_01_1_n_n : DotDims S32x4096x512 S512x512 S32x4096x512 where
  lhsContracting := [2]
  rhsContracting := [0]
  lhsNonContracting := [0, 1]
  rhsNonContracting := [1]
  lhsBatch := []
  rhsBatch := []
  wf := dot_S32x4096x512_S512x512_S32x4096x512_2_0_01_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x4096x512_S512x1_S32x4096x1_2_0_01_1_n_n : DotDims S32x4096x512 S512x1 S32x4096x1 where
  lhsContracting := [2]
  rhsContracting := [0]
  lhsNonContracting := [0, 1]
  rhsNonContracting := [1]
  lhsBatch := []
  rhsBatch := []
  wf := dot_S32x4096x512_S512x1_S32x4096x1_2_0_01_1_n_n_wf

class Facts : Prop extends Facts₀ where

variable [Facts]
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.TileScore.lean ====
/-
  What one grid point of the score kernel stores, read at an index.

  The body loads a `[1, 1024, 512]` tile `x0` of the encoder states, the whole `[512, 512]` weight `x1`, the bias
  `x2`, the batch row's projected decoder state `x3 : [1, 1, 512]`, the one-unit weight as a row `x4 : [1, 512]`
  and the scalar bias `x5`, and stores a `[1, 1024, 1]` column. Row `r` of that column is

      (Σ_u tanh ((Σ_e x0[0,r,e] · x1[e,u]) + x2[u] + x3[0,0,u]) · x4[0,u]) + x5[0]:

  the matrix unit's product into a zero accumulator is the plain sum over the contracted axis, the narrowing to bf16
  on the way in is the identity on extended reals, the lane reduction from the zero word is the plain sum over the
  lanes, and every cast or broadcast only renames coordinates.
-/
import proofs.«167829_j35467839930638_1_alg».proof.Proof.Gen.KernelIdeal.Skeleton
import proofs.«167829_j35467839930638_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The tile's matrix product at `(r, u)` -/

/-- The left operand's row coordinate is the output's row. -/
theorem lhs_row (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contracted one. -/
theorem lhs_col (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contracted one. -/
theorem rhs_row (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate is the output's column. -/
theorem rhs_col (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A `[1024, 512] × [512, 512]` product into the zero accumulator, at `(r, u)`: the sum over `e` of the left
    operand at `(r, e)` times the right at `(e, u)`. -/
theorem tile_matmul_apply (A : FVec Ideal S1024x512 .bf16) (B : FVec Ideal S512x512 .bf16) (r : Fin 1024) (u : Fin 512) :
    matmul dot_S1024x512_S512x512_S1024x512_1_0_0_1_n_n none A B (constant (F := Ideal) S1024x512 .f32 0x00000000#32) (ix2 r u)
      = ∑ e : Fin 512, A (ix2 r e) * B (ix2 e u) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r u) ((contrEquiv1 dot_S1024x512_S512x512_S1024x512_1_0_0_1_n_n 512 rfl rfl).symm k) = ix2 r k := funext fun a => Fin.ext (by
    match a with
    | ⟨0, _⟩ => exact lhs_row _ _
    | ⟨1, _⟩ => exact (lhs_col _ _).trans hk)
  have er : dot_S1024x512_S512x512_S1024x512_1_0_0_1_n_n.rhsIdx (ix2 r u) ((contrEquiv1 dot_S1024x512_S512x512_S1024x512_1_0_0_1_n_n 512 rfl rfl).symm k) = ix2 k u := funext fun a => Fin.ext (by
    match a with
    | ⟨0, _⟩ => exact (rhs_row _ _).trans hk
    | ⟨1, _⟩ => exact rhs_col _ _)
  rw [el, er]

/-! ## The lane sum of a `[1024, 512]` tile at row `r` -/

/-- The reduction along the lanes, started from the zero word, is the sum over the 512 lanes of row `r`. -/
theorem lane_sum_apply (X : FVec Ideal S1024x512 .f32) (hφ : FKind.Formats .f32)
    (hacc : (0x00000000#32 : BitVec 32) = 0x00000000#32) (r : Fin 1024) :
    multiReduction .add [1] S1024 X 0x00000000#32 reduces_S1024x512_S1024 hφ hacc (ix1 r)
      = ∑ u : Fin 512, X (ix2 r u) := by
  refine (Ideal.multiReduction_add_single X 0x00000000#32 reduces_S1024x512_S1024 hφ hacc (ix1 r)).trans ?_
  show ∑ k : Fin 512, X (reduces_S1024x512_S1024.lift (ix1 r) k) = ∑ u : Fin 512, X (ix2 r u)
  refine Finset.sum_congr rfl fun k _ => congrArg X (funext fun a => Fin.ext ?_)
  match a with
  | ⟨0, _⟩ => rfl
  | ⟨1, _⟩ => rfl

/-- The vector tanh reads elementwise. -/
theorem tanh_apply {s : Shape} (x : FVec Ideal s .f32) (i : s.Idx) : tanh x i = Ideal.tanh (x i) := rfl

/-! ## The stored column at row `r` -/

/-- Row `r` of what the body stores, as a function of the loaded blocks. -/
theorem stored_apply (x0 : Vec Ideal S1x1024x512 .f32) (x1 : Vec Ideal S512x512 .f32) (x2 : Vec Ideal S512 .f32)
    (x3 : Vec Ideal S1x1x512 .f32) (x4 : Vec Ideal S1x512 .f32) (x5 : Vec Ideal S1 .f32) (z : Fin 1) (r : Fin 1024) (z' : Fin 1) :
    k0_pay1 (F := Ideal) x0 x1 x2 x3 x4 x5 (ix3 z r z')
      = (∑ u : Fin 512,
            Ideal.tanh ((∑ e : Fin 512, x0 (ix3 (0 : Fin 1) r e) * x1 (ix2 e u)) + x2 (ix1 u) + x3 (ix3 (0 : Fin 1) (0 : Fin 1) u))
              * x4 (ix2 (0 : Fin 1) u))
          + x5 (ix1 (0 : Fin 1)) := by
  obtain rfl : z' = 0 := Subsingleton.elim _ _
  unfold k0_pay1
  simp only [shapeCast_ab_1ab_apply, addf_apply, Cert.Keepdims.shapeCast_a_a1_apply, broadcastTo_1b_ab_apply, shapeCast_a_1a_apply]
  refine congrArg (· + x5 (ix1 (0 : Fin 1))) ((lane_sum_apply _ _ _ r).trans (Finset.sum_congr rfl fun u _ => ?_))
  simp only [mulf_apply, tanh_apply, addf_apply, tile_matmul_apply, truncf_apply, shapeCast_1ab_ab_apply, broadcastTo_1b_ab_apply,
    shapeCast_a_1a_apply, shapeCast_self]

end Cert.KernelIdeal.Tile

end
-- ==== Proof.ScoreSpec.lean ====
/-
  The additive-attention score as ONE function of the argument arrays, index by index, on the extended reals.

  For a batch row `b` and a sequence position `s`, with `H` the encoder states, `We`, `be` the encoder
  projection, `D` the projected decoder state (one row of 512 units per batch row), `Wc`, `bc` the final
  one-unit layer:

      score b s = (Σ_u tanh ((Σ_e H[b,s,e] · We[e,u]) + be[u] + D[b,0,u]) · Wc[u,0]) + bc[0].

  Both programs compute this number: one as a matrix product of a 1024-row tile followed by a lane sum, the other
  as two contractions over whole arrays with the decoder term added on the other side of the sum. The only laws that
  separate the two spellings are commutativity of `+` and `0 + x = x`, which hold on every extended real, so no
  finiteness of the inputs is used.
-/
import Idealize.ShloMosaic.PureOps.Ideal
import Idealize.ShloMosaic.Lib.ValueIdx

noncomputable section

open scoped BigOperators

namespace Cert.Attn

open Idealize.ShloMosaic Idealize.ShloMosaic.ValueIdx

/-- The score of sequence position `s` of batch row `b`: the tanh of the projected encoder state plus its bias plus
    the projected decoder state, contracted with the one-column weight, plus the scalar bias. -/
def scoreAt (H : FVec Ideal ⟨3, ![32, 4096, 512]⟩ .f32) (We : FVec Ideal ⟨2, ![512, 512]⟩ .f32)
    (be : FVec Ideal ⟨1, ![512]⟩ .f32) (D : FVec Ideal ⟨3, ![32, 1, 512]⟩ .f32)
    (Wc : FVec Ideal ⟨2, ![512, 1]⟩ .f32) (bc : FVec Ideal ⟨1, ![1]⟩ .f32) (b : Fin 32) (s : Fin 4096) : EReal :=
  (∑ u : Fin 512,
      Ideal.tanh ((∑ e : Fin 512, H (ix3 b s e) * We (ix2 e u)) + be (ix1 u) + D (ix3 b (0 : Fin 1) u))
        * Wc (ix2 u (0 : Fin 1)))
    + bc (ix1 (0 : Fin 1))

/-- The whole `[32, 4096, 1]` array of scores. -/
def score (H : FVec Ideal ⟨3, ![32, 4096, 512]⟩ .f32) (We : FVec Ideal ⟨2, ![512, 512]⟩ .f32)
    (be : FVec Ideal ⟨1, ![512]⟩ .f32) (D : FVec Ideal ⟨3, ![32, 1, 512]⟩ .f32)
    (Wc : FVec Ideal ⟨2, ![512, 1]⟩ .f32) (bc : FVec Ideal ⟨1, ![1]⟩ .f32) : FVec Ideal ⟨3, ![32, 4096, 1]⟩ .f32 :=
  fun i => scoreAt H We be D Wc bc (i 0) (i 1)

/-- The array read at coordinates `(b, s, z)`; the last axis has one entry, so `z` does not matter. -/
theorem score_apply (H : FVec Ideal ⟨3, ![32, 4096, 512]⟩ .f32) (We : FVec Ideal ⟨2, ![512, 512]⟩ .f32)
    (be : FVec Ideal ⟨1, ![512]⟩ .f32) (D : FVec Ideal ⟨3, ![32, 1, 512]⟩ .f32)
    (Wc : FVec Ideal ⟨2, ![512, 1]⟩ .f32) (bc : FVec Ideal ⟨1, ![1]⟩ .f32) (b : Fin 32) (s : Fin 4096) (z : Fin 1) :
    score H We be D Wc bc (ix3 b s z) = scoreAt H We be D Wc bc b s := rfl

/-- A score from BLOCKS: if a 1024-row tile `y0`, and blocks `y1 … y5` of the other operands, hold at the places the
    tile's row `r` reads the entries of the whole arrays that belong to `(b, s)` — the final weight as a ROW `y4` of
    the column `Wc` —, the tile's expression for row `r` is `score b s`. -/
theorem scoreAt_of_blocks (H : FVec Ideal ⟨3, ![32, 4096, 512]⟩ .f32) (We : FVec Ideal ⟨2, ![512, 512]⟩ .f32)
    (be : FVec Ideal ⟨1, ![512]⟩ .f32) (D : FVec Ideal ⟨3, ![32, 1, 512]⟩ .f32)
    (Wc : FVec Ideal ⟨2, ![512, 1]⟩ .f32) (bc : FVec Ideal ⟨1, ![1]⟩ .f32) (b : Fin 32) (s : Fin 4096)
    (y0 : FVec Ideal ⟨3, ![1, 1024, 512]⟩ .f32) (y1 : FVec Ideal ⟨2, ![512, 512]⟩ .f32) (y2 : FVec Ideal ⟨1, ![512]⟩ .f32)
    (y3 : FVec Ideal ⟨3, ![1, 1, 512]⟩ .f32) (y4 : FVec Ideal ⟨2, ![1, 512]⟩ .f32) (y5 : FVec Ideal ⟨1, ![1]⟩ .f32) (r : Fin 1024)
    (h0 : ∀ e : Fin 512, y0 (ix3 (0 : Fin 1) r e) = H (ix3 b s e))
    (h1 : ∀ e u : Fin 512, y1 (ix2 e u) = We (ix2 e u))
    (h2 : ∀ u : Fin 512, y2 (ix1 u) = be (ix1 u))
    (h3 : ∀ u : Fin 512, y3 (ix3 (0 : Fin 1) (0 : Fin 1) u) = D (ix3 b (0 : Fin 1) u))
    (h4 : ∀ u : Fin 512, y4 (ix2 (0 : Fin 1) u) = Wc (ix2 u (0 : Fin 1)))
    (h5 : y5 (ix1 (0 : Fin 1)) = bc (ix1 (0 : Fin 1))) :
    (∑ u : Fin 512,
        Ideal.tanh ((∑ e : Fin 512, y0 (ix3 (0 : Fin 1) r e) * y1 (ix2 e u)) + y2 (ix1 u) + y3 (ix3 (0 : Fin 1) (0 : Fin 1) u))
          * y4 (ix2 (0 : Fin 1) u))
      + y5 (ix1 (0 : Fin 1))
      = scoreAt H We be D Wc bc b s := by
  unfold scoreAt
  simp only [h0, h1, h2, h3, h4, h5]

end Cert.Attn

end
-- ==== Proof.LibColRow.lean ====
/-
  A column `[a, 1]` cast to a row `[1, a]`, read at an index given by coordinates: both shapes list the same `a`
  entries in the same row-major order, so the row's entry `i` is the column's entry `i`, whatever the unit coordinates.
  An instance of the library's general lemma (a shape cast reads the operand at the index with the same row-major
  position) with the coordinates' arithmetic discharged.
-/
import Idealize.ShloMosaic.Lib.Pipeline.Value
import Idealize.ShloMosaic.Lib.ValueIdx

namespace Cert.ColRow

open Idealize.ShloMosaic Idealize.ShloMosaic.ValueIdx

variable {α : Type}

/-- A column `[a, 1]` cast to a row `[1, a]` reads, at `(u, i)`, the column at `(i, u')`: the row-major position of
    `(u, i)` in `[1, a]` is `0 · a + i`, that of `(i, u')` in `[a, 1]` is `i · 1 + 0`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.mul_one, Nat.add_zero, Nat.zero_mul, Nat.zero_add])

end Cert.ColRow
-- ==== Proof.ScoreArray.lean ====
/-
  The kernel's score array after the run is the `score` function of the argument arrays.

  The grid has 32 × 4 points; point `t` = (batch row `b`, sequence tile `q`) reads rows `1024 q … 1024 q + 1023` of
  batch row `b` of the encoder states, the whole encoder weight and bias, batch row `b` of the projected decoder
  state, the whole final weight (as a row) and bias, and writes rows `1024 q … 1024 q + 1023` of batch row `b` of the
  score array. So what point `t` writes back is ITS BLOCK of one whole-array function, the blocks tile the array, and
  the array ends holding that function.

  The projected decoder state and the final weight's row are written by host operations before the kernel runs:
  the first is the reference's own stage for it, the second is the column weight re-read in row order.
-/
import proofs.«167829_j35467839930638_1_alg».proof.Proof.Gen.KernelIdeal.Frame
import proofs.«167829_j35467839930638_1_alg».proof.Proof.Gen.ReferenceIdeal.Read
import proofs.«167829_j35467839930638_1_alg».proof.Proof.TileScore
import proofs.«167829_j35467839930638_1_alg».proof.Proof.ScoreSpec
import proofs.«167829_j35467839930638_1_alg».proof.Proof.LibColRow
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Scores

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The two arrays the host writes before the kernel runs -/

/-- The projected decoder state `H_decoder · Wd + bd`, one row of 512 units per batch row, as a `[32, 1, 512]` array. -/
abbrev decProj (c : Dev nD) : FVec Ideal S32x1x512 .f32 :=
  Cert.ReferenceIdeal.Read.val_main_v8 (F := Ideal) (m ((c : Thread nD τ).loc main_arg1)) (m ((c : Thread nD τ).loc main_arg4))
    (m ((c : Thread nD τ).loc main_arg5))

/-- The kernel finds the projected decoder state in the array its fourth window stages. -/
theorem V_dec (c : Dev nD) : (V m c main_v4 : S32x1x512.Idx → EReal) = decProj m c := by
  show StableHlo.after hostOps0 (fun b => m (c, b)) (Proc.devRef .tc main_v4) = _
  after_results
  rfl

/-- The kernel finds the final weight as a row: entry `(0, u)` is the column's entry `(u, 0)`. -/
theorem V_wc_row (c : Dev nD) (u : Fin 512) :
    (V m c main_v5 : S1x512.Idx → EReal) (ix2 (0 : Fin 1) u)
      = (m ((c : Thread nD τ).loc main_arg6) : S512x1.Idx → EReal) (ix2 u (0 : Fin 1)) := by
  have e : (V m c main_v5 : S1x512.Idx → EReal)
      = fun i => shapeCast S1x512 (m ((c : Thread nD τ).loc main_arg6) : S512x1.Idx → EReal) shapeCasts_S512x1_S1x512 i := by
    show StableHlo.after hostOps0 (fun b => m (c, b)) (Proc.devRef .tc main_v5) = _
    after_results
    rfl
  rw [e]
  exact Cert.ColRow.shapeCast_a1_1a_apply _ _ _ _ _

/-! ## The whole-array function -/

/-- The score array as a function of the argument arrays. -/
def scores (c : Dev nD) : FVec Ideal S32x4096x1 .f32 :=
  Cert.Attn.score (m ((c : Thread nD τ).loc main_arg0)) (m ((c : Thread nD τ).loc main_arg2)) (m ((c : Thread nD τ).loc main_arg3))
    (decProj m c) (m ((c : Thread nD τ).loc main_arg6)) (m ((c : Thread nD τ).loc main_arg7))

/-! ## The index maps, decided over the grid -/

/-- The encoder tile and the projected decoder row move with the output block; every other operand sits at block 0;
    the output's block index is (batch row, sequence tile, 0). -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = win0_6.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0
    ∧ win0_6.index t (0 : Fin 3) = t.val / 4 ∧ win0_6.index t (1 : Fin 3) = t.val % 4 ∧ win0_6.index t (2 : Fin 3) = 0 :=
  (by decide +kernel : ∀ t : Fin grid0.N, _)

/-! ## Each input block, read where the output's row says -/

/-- Row `r` of the encoder tile at point `t` is row `S` of batch row `B` of the encoder states, for `(B, S)` the
    array coordinates of the output's row `r`. -/
theorem blk_enc (c : Dev nD) (t : Fin cfg0.N) (r : Fin 1024) (e : Fin 512) (B : Fin 32) (S : Fin 4096)
    (hB : B.val = win0_6.index t (0 : Fin 3)) (hS : S.val = win0_6.index t (1 : Fin 3) * 1024 + r.val) :
    (iblk m c 0 t : Vec Ideal S1x1024x512 .f32) (ix3 (0 : Fin 1) r e)
      = (m ((c : Thread nD τ).loc main_arg0) : S32x4096x512.Idx → EReal) (ix3 B S e) := by
  obtain ⟨f00, f01, f02, -⟩ := idx_facts t
  refine Eq.trans ?_ (congrFun (V_main_arg0 m c) (ix3 B S e))
  show V m c main_arg0 (((cfg0.win 0).blk t).view.emb (ix3 (0 : Fin 1) r e)) = V m c main_arg0 (ix3 B S e)
  refine congrArg (V m c main_arg0) (funext fun a => Fin.ext ?_)
  match a with
  | ⟨0, _⟩ => show win0_0.index t (0 : Fin 3) * 1 + 1 * 0 = B.val; omega
  | ⟨1, _⟩ => show win0_0.index t (1 : Fin 3) * 1024 + 1 * r.val = S.val; omega
  | ⟨2, _⟩ => show win0_0.index t (2 : Fin 3) * 512 + 1 * e.val = e.val; omega

/-- The encoder weight's block is the whole weight. -/
theorem blk_we (c : Dev nD) (t : Fin cfg0.N) (e u : Fin 512) :
    (iblk m c 1 t : Vec Ideal S512x512 .f32) (ix2 e u) = (m ((c : Thread nD τ).loc main_arg2) : S512x512.Idx → EReal) (ix2 e u) := by
  obtain ⟨-, -, -, f10, f11, -⟩ := idx_facts t
  refine Eq.trans ?_ (congrFun (V_main_arg2 m c) (ix2 e u))
  show V m c main_arg2 (((cfg0.win 1).blk t).view.emb (ix2 e u)) = V m c main_arg2 (ix2 e u)
  refine congrArg (V m c main_arg2) (funext fun a => Fin.ext ?_)
  match a with
  | ⟨0, _⟩ => show win0_1.index t (0 : Fin 2) * 512 + 1 * e.val = e.val; omega
  | ⟨1, _⟩ => show win0_1.index t (1 : Fin 2) * 512 + 1 * u.val = u.val; omega

/-- The encoder bias's block is the whole bias. -/
theorem blk_be (c : Dev nD) (t : Fin cfg0.N) (u : Fin 512) :
    (iblk m c 2 t : Vec Ideal S512 .f32) (ix1 u) = (m ((c : Thread nD τ).loc main_arg3) : S512.Idx → EReal) (ix1 u) := by
  obtain ⟨-, -, -, -, -, f20, -⟩ := idx_facts t
  refine Eq.trans ?_ (congrFun (V_main_arg3 m c) (ix1 u))
  show V m c main_arg3 (((cfg0.win 2).blk t).view.emb (ix1 u)) = V m c main_arg3 (ix1 u)
  refine congrArg (V m c main_arg3) (funext fun a => Fin.ext ?_)
  match a with
  | ⟨0, _⟩ => show win0_2.index t (0 : Fin 1) * 512 + 1 * u.val = u.val; omega

/-- The decoder block at point `t` is batch row `B` of the projected decoder state. -/
theorem blk_dec (c : Dev nD) (t : Fin cfg0.N) (u : Fin 512) (B : Fin 32) (hB : B.val = win0_6.index t (0 : Fin 3)) :
    (iblk m c 3 t : Vec Ideal S1x1x512 .f32) (ix3 (0 : Fin 1) (0 : Fin 1) u) = decProj m c (ix3 B (0 : Fin 1) u) := by
  obtain ⟨-, -, -, -, -, -, f30, f31, f32, -⟩ := idx_facts t
  refine Eq.trans ?_ (congrFun (V_dec m c) (ix3 B (0 : Fin 1) u))
  show V m c main_v4 (((cfg0.win 3).blk t).view.emb (ix3 (0 : Fin 1) (0 : Fin 1) u)) = V m c main_v4 (ix3 B (0 : Fin 1) u)
  refine congrArg (V m c main_v4) (funext fun a => Fin.ext ?_)
  match a with
  | ⟨0, _⟩ => show win0_3.index t (0 : Fin 3) * 1 + 1 * 0 = B.val; omega
  | ⟨1, _⟩ => show win0_3.index t (1 : Fin 3) * 1 + 1 * 0 = 0; omega
  | ⟨2, _⟩ => show win0_3.index t (2 : Fin 3) * 512 + 1 * u.val = u.val; omega

/-- The final weight's block is the whole row, whose entry `u` is the column's entry `u`. -/
theorem blk_wc (c : Dev nD) (t : Fin cfg0.N) (u : Fin 512) :
    (iblk m c 4 t : Vec Ideal S1x512 .f32) (ix2 (0 : Fin 1) u)
      = (m ((c : Thread nD τ).loc main_arg6) : S512x1.Idx → EReal) (ix2 u (0 : Fin 1)) := by
  obtain ⟨-, -, -, -, -, -, -, -, -, f40, f41, -⟩ := idx_facts t
  refine Eq.trans ?_ (V_wc_row m c u)
  show V m c main_v5 (((cfg0.win 4).blk t).view.emb (ix2 (0 : Fin 1) u)) = V m c main_v5 (ix2 (0 : Fin 1) u)
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 512 + 1 * u.val = u.val; omega

/-- The final bias's block is the bias. -/
theorem blk_bc (c : Dev nD) (t : Fin cfg0.N) :
    (iblk m c 5 t : Vec Ideal S1 .f32) (ix1 (0 : Fin 1)) = (m ((c : Thread nD τ).loc main_arg7) : S1.Idx → EReal) (ix1 (0 : Fin 1)) := by
  obtain ⟨-, -, -, -, -, -, -, -, -, -, -, f50, -⟩ := idx_facts t
  refine Eq.trans ?_ (congrFun (V_main_arg7 m c) (ix1 (0 : Fin 1)))
  show V m c main_arg7 (((cfg0.win 5).blk t).view.emb (ix1 (0 : Fin 1))) = V m c main_arg7 (ix1 (0 : Fin 1))
  refine congrArg (V m c main_arg7) (funext fun a => Fin.ext ?_)
  match a with
  | ⟨0, _⟩ => show win0_5.index t (0 : Fin 1) * 1 + 1 * 0 = 0; omega

/-! ## What a point stores is its block of `scores` -/

/-- What the body leaves in the output's staging buffer, at row `r`, over any loaded blocks: its one store covers the
    buffer, and its payload is the tile's expression. -/
theorem stored_row (x0 : Vec Ideal S1x1024x512 .f32) (x1 : Vec Ideal S512x512 .f32) (x2 : Vec Ideal S512 .f32)
    (x3 : Vec Ideal S1x1x512 .f32) (x4 : Vec Ideal S1x512 .f32) (x5 : Vec Ideal S1 .f32) (z : Fin 1) (r : Fin 1024) (z' : Fin 1) :
    out0_6 (F := Ideal) x0 x1 x2 x3 x4 x5 (ix3 z r z')
      = (∑ u : Fin 512,
            Ideal.tanh ((∑ e : Fin 512, x0 (ix3 (0 : Fin 1) r e) * x1 (ix2 e u)) + x2 (ix1 u) + x3 (ix3 (0 : Fin 1) (0 : Fin 1) u))
              * x4 (ix2 (0 : Fin 1) u))
          + x5 (ix1 (0 : Fin 1)) := by
  unfold out0_6
  rw [View.canon_unit_zero hz3]
  simp only [View.ld_unit_zero (S := S1x1024x512) hz3, View.ld_unit_zero (S := S512x512) hz2, View.ld_unit_zero (S := S512) hz1,
    View.ld_unit_zero (S := S1x1x512) hz3, View.ld_unit_zero (S := S1x512) hz2, View.ld_unit_zero (S := S1) hz1]
  exact Cert.KernelIdeal.Tile.stored_apply x0 x1 x2 x3 x4 x5 z r z'

/-- Row `r` of what point `t` leaves is `scores` at that row's place in the array. -/
theorem point_row (c : Dev nD) (t : Fin cfg0.N) (z : Fin 1) (r : Fin 1024) (z' : Fin 1) :
    out0_6 (F := Ideal) (iblk m c 0 t) (iblk m c 1 t) (iblk m c 2 t) (iblk m c 3 t) (iblk m c 4 t) (iblk m c 5 t) (ix3 z r z')
      = scores m c (((cfg0.win 6).blk t).view.emb (ix3 z r z')) := by
  obtain ⟨-, -, -, -, -, -, -, -, -, -, -, -, g0, g1, g2⟩ := idx_facts t
  have hN : t.val < 128 := lt_of_lt_of_eq t.isLt N_0
  have hz : z.val = 0 := by omega
  have hz' : z'.val = 0 := by omega
  have hr : r.val < 1024 := r.isLt
  have hB : win0_6.index t (0 : Fin 3) < 32 := by omega
  have hS : win0_6.index t (1 : Fin 3) * 1024 + r.val < 4096 := by omega
  have hemb : ((cfg0.win 6).blk t).view.emb (ix3 z r z')
      = (ix3 (⟨win0_6.index t (0 : Fin 3), hB⟩ : Fin 32) (⟨win0_6.index t (1 : Fin 3) * 1024 + r.val, hS⟩ : Fin 4096) (0 : Fin 1) : S32x4096x1.Idx) :=
    funext fun a => Fin.ext (by
      match a with
      | ⟨0, _⟩ => show win0_6.index t (0 : Fin 3) * 1 + 1 * z.val = win0_6.index t (0 : Fin 3); omega
      | ⟨1, _⟩ => show win0_6.index t (1 : Fin 3) * 1024 + 1 * r.val = win0_6.index t (1 : Fin 3) * 1024 + r.val; omega
      | ⟨2, _⟩ => show win0_6.index t (2 : Fin 3) * 1 + 1 * z'.val = 0; omega)
  rw [hemb]
  unfold scores
  rw [Cert.Attn.score_apply]
  refine (stored_row (iblk m c 0 t) (iblk m c 1 t) (iblk m c 2 t) (iblk m c 3 t) (iblk m c 4 t) (iblk m c 5 t) z r z').trans ?_
  exact Cert.Attn.scoreAt_of_blocks (m ((c : Thread nD τ).loc main_arg0)) (m ((c : Thread nD τ).loc main_arg2))
    (m ((c : Thread nD τ).loc main_arg3)) (decProj m c) (m ((c : Thread nD τ).loc main_arg6)) (m ((c : Thread nD τ).loc main_arg7))
    ⟨win0_6.index t (0 : Fin 3), hB⟩ ⟨win0_6.index t (1 : Fin 3) * 1024 + r.val, hS⟩
    (iblk m c 0 t) (iblk m c 1 t) (iblk m c 2 t) (iblk m c 3 t) (iblk m c 4 t) (iblk m c 5 t) r
    (fun e => blk_enc m c t r e _ _ rfl rfl) (fun e u => blk_we m c t e u) (fun u => blk_be m c t u)
    (fun u => blk_dec m c t u _ rfl) (fun u => blk_wc m c t u) (blk_bc m c t)

/-- WHAT POINT `t` WRITES BACK is block `t` of `scores`. -/
theorem flushed_eq (c : Dev nD) (t : Fin cfg0.N) :
    (dats m 0 c).flushed 6 t = ((cfg0.win 6).blk t).view.read (Elt Ideal) (scores m c) := by
  show (cfg0.win 6).cut (grid0.coords t) ((dats m 0 c).after 6 t) = _
  rw [after0_6]
  funext j
  obtain ⟨z, r, z', rfl⟩ : ∃ (z : Fin 1) (r : Fin 1024) (z' : Fin 1), j = ix3 z r z' := ⟨j 0, j 1, j 2, eq_ix3 j⟩
  exact point_row m c t z r z'

/-! ## The blocks tile the array -/

/-- An index of the score array is in point `t`'s block iff each coordinate is in the block's range on its axis. -/
theorem mem_blk (t : Fin cfg0.N) (i : S32x4096x1.Idx) :
    i ∈ ((cfg0.win 6).blk t).view.set ↔ ∀ a : Fin 3, win0_6.index t a * S1x1024x1.size a ≤ (i a).val ∧ (i a).val < win0_6.index t a * S1x1024x1.size a + S1x1024x1.size a := by
  show i ∈ ((View.whole main_v6).slice (win0_6.rect t)).set ↔ _
  rw [View.set_slice_whole, Rect.mem_set_unit]
  exact Iff.rfl

/-- Every index is in the block of the point (its batch row, the tile its sequence position falls in). -/
theorem cover (i : S32x4096x1.Idx) : ∃ t : Fin cfg0.N, (cfg0.win 6).flush t = true ∧ i ∈ ((cfg0.win 6).blk t).view.set := by
  have h0 : (i 0).val < 32 := (i 0).isLt
  have h1 : (i 1).val < 4096 := (i 1).isLt
  have h2 : (i 2).val < 1 := (i 2).isLt
  have hN : (i 0).val * 4 + (i 1).val / 1024 < cfg0.N := lt_of_lt_of_eq (by omega : (i 0).val * 4 + (i 1).val / 1024 < 128) N_0.symm
  refine ⟨⟨(i 0).val * 4 + (i 1).val / 1024, hN⟩, flush0_6 _, ?_⟩
  obtain ⟨-, -, -, -, -, -, -, -, -, -, -, -, g0, g1, g2⟩ := idx_facts ⟨(i 0).val * 4 + (i 1).val / 1024, hN⟩
  have g0' : win0_6.index ⟨(i 0).val * 4 + (i 1).val / 1024, hN⟩ (0 : Fin 3) = ((i 0).val * 4 + (i 1).val / 1024) / 4 := g0
  have g1' : win0_6.index ⟨(i 0).val * 4 + (i 1).val / 1024, hN⟩ (1 : Fin 3) = ((i 0).val * 4 + (i 1).val / 1024) % 4 := g1
  rw [mem_blk]
  intro a
  match a with
  | ⟨0, _⟩ =>
    show win0_6.index ⟨(i 0).val * 4 + (i 1).val / 1024, hN⟩ (0 : Fin 3) * 1 ≤ (i 0).val
      ∧ (i 0).val < win0_6.index ⟨(i 0).val * 4 + (i 1).val / 1024, hN⟩ (0 : Fin 3) * 1 + 1
    omega
  | ⟨1, _⟩ =>
    show win0_6.index ⟨(i 0).val * 4 + (i 1).val / 1024, hN⟩ (1 : Fin 3) * 1024 ≤ (i 1).val
      ∧ (i 1).val < win0_6.index ⟨(i 0).val * 4 + (i 1).val / 1024, hN⟩ (1 : Fin 3) * 1024 + 1024
    omega
  | ⟨2, _⟩ =>
    show win0_6.index ⟨(i 0).val * 4 + (i 1).val / 1024, hN⟩ (2 : Fin 3) * 1 ≤ (i 2).val
      ∧ (i 2).val < win0_6.index ⟨(i 0).val * 4 + (i 1).val / 1024, hN⟩ (2 : Fin 3) * 1 + 1
    omega

/-- THE ARRAY after the run: `scores` of the argument arrays. -/
theorem final (c : Dev nD) : (dats m 0 c).arrAt 6 cfg0.N = scores m c :=
  (dats m 0 c).arrAt_eq_of_cover 6 (scores m c) (fun t _ => flushed_eq m c t) cover

end Cert.KernelIdeal.Scores

end
-- ==== Proof.Tail.lean ====
/-
  What both programs do AFTER the scores: a softmax along the sequence axis and the weighted sum of the projected
  decoder state, the same host operations in the same order. They are carried here as two functions of the score
  array (and of the projected decoder state), never opened: equal scores give equal results.

      weights s  = exp (s − max_s) / Σ_s exp (s − max_s)         along axis 1 of [32, 4096, 1]
      context s D = Σ_s (weights s)[b,s,0] · D[b,0,u]             a [32, 512] array

  The reference's two results are these functions of its own score stage and its own projected decoder state.
-/
import proofs.«167829_j35467839930638_1_alg».proof.Proof.Gen.ReferenceIdeal.Read

noncomputable section

namespace Cert.Attn

open Cert.ReferenceIdeal Cert.ReferenceIdeal.Gen Cert.ReferenceIdeal.Read Idealize.ShloMosaic Idealize.ShloMosaic.TcCoe Idealize.SL.Sem

/-- The scores with their row maximum (over the sequence axis, never below `-∞`) subtracted, exponentiated. -/
def expShifted (s : FVec Ideal S32x4096x1 .f32) : FVec Ideal S32x4096x1 .f32 :=
  Host.exp (F := Ideal) (subf s (broadcastInDim S32x4096x1 ![0, 1, 2] bcast_S32x1x1_S32x4096x1_0_1_2 (broadcastInDim S32x1x1 ![0, 2] bcast_S32x1_S32x1x1_0_2 (maximumf (broadcastInDim S32x1 ![] bcast_S_S32x1 (constant (F := Ideal) S_ .f32 0xFF800000#32)) (Host.reduce FloatOps.maximumf s (constant (F := Ideal) S_ .f32 0xFF800000#32) reducesTo_S32x4096x1_S32x1_d1 h_S_)))))

/-- The attention weights: the shifted exponentials divided by their sum over the sequence axis. -/
def weights (s : FVec Ideal S32x4096x1 .f32) : FVec Ideal S32x4096x1 .f32 :=
  Host.divf (F := Ideal) (expShifted s) (broadcastInDim S32x4096x1 ![0, 1, 2] bcast_S32x1x1_S32x4096x1_0_1_2 (broadcastInDim S32x1x1 ![0, 2] bcast_S32x1_S32x1x1_0_2 (Host.reduceAdd (F := Ideal) (expShifted s) (constant (F := Ideal) S_ .f32 0x00000000#32) reducesTo_S32x4096x1_S32x1_d1 h_S_)))

/-- The context vector: the weights times the projected decoder state, summed over the sequence axis. -/
def context (s : FVec Ideal S32x4096x1 .f32) (d : FVec Ideal S32x1x512 .f32) : FVec Ideal S32x512 .f32 :=
  Host.reduceAdd (F := Ideal) (mulf (broadcastInDim S32x4096x512 ![0, 1, 2] bcast_S32x4096x1_S32x4096x512_0_1_2 (weights s)) (broadcastInDim S32x4096x512 ![0, 1, 2] bcast_S32x1x512_S32x4096x512_0_1_2 d)) (constant (F := Ideal) S_ .f32 0x00000000#32) reducesTo_S32x4096x512_S32x512_d1 h_S_

variable (x0 : (⟨S32x4096x512, .f32⟩ : BufTy).Contents (Elt Ideal)) (x1 : (⟨S32x512, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x1, .f32⟩ : BufTy).Contents (Elt Ideal)) (x7 : (⟨S1, .f32⟩ : BufTy).Contents (Elt Ideal))

/-- The reference's shifted exponentials are `expShifted` of its score stage. -/
theorem ref_expShifted : val_main_v22 (F := Ideal) x0 x1 x2 x3 x4 x5 x6 x7 = expShifted (val_main_v15 (F := Ideal) x0 x1 x2 x3 x4 x5 x6 x7) := by
  unfold val_main_v22 val_main_v21 val_main_v20 val_main_v19 val_main_v18 val_main_v17 val_main_v16 val_main_cst val_main_cst_0 expShifted
  rfl

/-- The reference's attention weights are `weights` of its score stage. -/
theorem ref_weights : val_main_v26 (F := Ideal) x0 x1 x2 x3 x4 x5 x6 x7 = weights (val_main_v15 (F := Ideal) x0 x1 x2 x3 x4 x5 x6 x7) := by
  unfold val_main_v26 val_main_v25 val_main_v24 val_main_v23 val_main_cst_1 weights
  rw [ref_expShifted]

/-- The reference's context vector is `context` of its score stage and of its projected decoder state. -/
theorem ref_context : val_main_v30 (F := Ideal) x0 x1 x2 x3 x4 x5 x6 x7
    = context (val_main_v15 (F := Ideal) x0 x1 x2 x3 x4 x5 x6 x7) (val_main_v8 (F := Ideal) x1 x4 x5) := by
  unfold val_main_v30 val_main_v29 val_main_v28 val_main_v27 val_main_cst_2 context
  rw [ref_weights]

end Cert.Attn

end
-- ==== Proof.KernelRun.lean ====
/-
  The idealized kernel program's run, read: its two results as functions of its arguments.

  After the kernel has filled the score array, the program runs the softmax and the weighted sum on the host. Those
  lines read the score array the kernel wrote and the projected decoder state the host wrote before the kernel (which
  the kernel only read), so the attention weights are `weights` of `scores` and the context vector is `context` of
  `scores` and of the projected decoder state.
-/
import proofs.«167829_j35467839930638_1_alg».proof.Proof.ScoreArray
import proofs.«167829_j35467839930638_1_alg».proof.Proof.Tail

set_option maxRecDepth 16384

noncomputable section

namespace Cert.KernelIdeal.Results

open Cert.KernelIdeal Cert.KernelIdeal.Gen Cert.KernelIdeal.Scores Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The score array as the lines after the kernel find it. -/
theorem scores_after (c : Dev nD) :
    Pipeline.withArrays spec0 c (V0 m c) (fun w => (dats m 0 c).arrAt w cfg0.N) (Proc.devRef .tc (Pipeline.arrRef spec0 6)) = scores m c :=
  (Pipeline.withArrays_arr spec0 launch0.win.arr_inj c (V0 m c) (fun w => (dats m 0 c).arrAt w cfg0.N) 6).trans (final m c)

/-- The projected decoder state as the lines after the kernel find it: the kernel only read it. -/
theorem dec_after (c : Dev nD) :
    Pipeline.withArrays spec0 c (V0 m c) (fun w => (dats m 0 c).arrAt w cfg0.N) (Proc.devRef .tc (Pipeline.arrRef spec0 3)) = decProj m c :=
  (Pipeline.withArrays_arr spec0 launch0.win.arr_inj c (V0 m c) (fun w => (dats m 0 c).arrAt w cfg0.N) 3).trans
    (((dats m 0 c).arrAt_in 3 rfl _).trans ((A_eq m c 3).trans (V_dec m c)))

/-- The attention weights the program returns. -/
theorem weights_eq (c : Dev nD) :
    Pipeline.afterTail₀ cfgs (dats m) 0 (V0 m) [hostOps1] c main_v17 = Cert.Attn.weights (scores m c) := by
  unfold Pipeline.afterTail₀
  show StableHlo.after hostOps1 _ (Proc.devRef .tc main_v17) = _
  after_results
  exact congrArg Cert.Attn.weights (scores_after m c)

/-- The context vector the program returns. -/
theorem context_eq (c : Dev nD) :
    Pipeline.afterTail₀ cfgs (dats m) 0 (V0 m) [hostOps1] c main_v21 = Cert.Attn.context (scores m c) (decProj m c) := by
  unfold Pipeline.afterTail₀
  show StableHlo.after hostOps1 _ (Proc.devRef .tc main_v21) = _
  after_results
  exact congrArg₂ Cert.Attn.context (scores_after m c) (dec_after m c)

/-- Every weakly fair execution of the program terminates with the context vector and the attention weights at these
    functions of the arguments, and the arguments unchanged. -/
theorem run : θ_run defs (onTc (τ := τ) (main (F := Ideal))) ⟨m, fun _ => 0, ρ⟩ fun r => ∀ c : Dev nD,
      r.2.mem ((c.tc : Thread nD τ).loc main_v21) = Cert.Attn.context (scores m c) (decProj m c)
      ∧ r.2.mem ((c.tc : Thread nD τ).loc main_v17) = Cert.Attn.weights (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v21 (Pipeline.mem_restRefs_of main_v21 (by decide) (by decide))).trans (context_eq m c),
      ((h c).2 main_v17 (Pipeline.mem_restRefs_of main_v17 (by decide) (by decide))).trans (weights_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c)))⟩)
    (run_main m ρ)

end Cert.KernelIdeal.Results

end
-- ==== Proof.RefScore.lean ====
/-
  The reference's score array is the `score` function of its arguments.

  Read one operation at a time, entry `(b, s, 0)` of the reference's score is the contraction over `u` of
  `tanh (D[b,0,u] + ((Σ_e H[b,s,e] · We[e,u]) + be[u]))` with the one-column weight, plus the scalar bias, where `D`
  is the projected decoder state. This is the specification's number with the two summands inside the `tanh` in the
  other order: addition of extended reals is commutative.
-/
import proofs.«167829_j35467839930638_1_alg».proof.Proof.Gen.ReferenceIdeal.Read
import proofs.«167829_j35467839930638_1_alg».proof.Proof.ScoreSpec

noncomputable section

open scoped BigOperators

namespace Cert.ReferenceIdeal.RefScore

open Cert.ReferenceIdeal Cert.ReferenceIdeal.Read Idealize.ShloMosaic Idealize.ShloMosaic.ValueIdx

/-- The reference's score stage is `score` of the encoder states, the encoder projection, the projected decoder
    state (the reference's own stage for it) and the final layer. -/
theorem score_eq (x0 : (⟨S32x4096x512, .f32⟩ : BufTy).Contents (Elt Ideal)) (x1 : (⟨S32x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x1, .f32⟩ : BufTy).Contents (Elt Ideal)) (x7 : (⟨S1, .f32⟩ : BufTy).Contents (Elt Ideal)) :
    val_main_v15 (F := Ideal) x0 x1 x2 x3 x4 x5 x6 x7
      = Cert.Attn.score x0 x2 x3 (val_main_v8 (F := Ideal) x1 x4 x5) x6 x7 := by
  funext i
  obtain ⟨b, s, z, rfl⟩ : ∃ (b : Fin 32) (s : Fin 4096) (z : Fin 1), i = ix3 b s z := ⟨i 0, i 1, i 2, eq_ix3 i⟩
  obtain rfl : z = 0 := Subsingleton.elim _ _
  rw [Cert.Attn.score_apply, val_main_v15_apply, val_main_v12_apply, val_main_v14_apply, val_main_v13_apply]
  unfold Cert.Attn.scoreAt
  -- the operand indices of each stage, by coordinates
  have e12l : ∀ u : Fin 512, lidx_main_v12 (ix3 b s (0 : Fin 1)) u = ix3 b s u := fun u => funext fun a => Fin.ext (by
    match a with | ⟨0, _⟩ => rfl | ⟨1, _⟩ => rfl | ⟨2, _⟩ => rfl)
  have e12r : ∀ u : Fin 512, ridx_main_v12 (ix3 b s (0 : Fin 1)) u = ix2 u (0 : Fin 1) := fun u => funext fun a => Fin.ext (by
    match a with | ⟨0, _⟩ => rfl | ⟨1, _⟩ => rfl)
  have e13 : idx_main_v13 (idx_main_v14 (ix3 b s (0 : Fin 1))) = ix1 (0 : Fin 1) := funext fun a => Fin.ext (by
    match a with | ⟨0, _⟩ => rfl)
  have e9 : ∀ u : Fin 512, idx_main_v9 (ix3 b s u) = ix3 b (0 : Fin 1) u := fun u => funext fun a => Fin.ext (by
    match a with | ⟨0, _⟩ => rfl | ⟨1, _⟩ => rfl | ⟨2, _⟩ => rfl)
  have e0l : ∀ (u e : Fin 512), lidx_main_v0 (ix3 b s u) e = ix3 b s e := fun u e => funext fun a => Fin.ext (by
    match a with | ⟨0, _⟩ => rfl | ⟨1, _⟩ => rfl | ⟨2, _⟩ => rfl)
  have e0r : ∀ (u e : Fin 512), ridx_main_v0 (ix3 b s u) e = ix2 e u := fun u e => funext fun a => Fin.ext (by
    match a with | ⟨0, _⟩ => rfl | ⟨1, _⟩ => rfl)
  have e1 : ∀ u : Fin 512, idx_main_v1 (idx_main_v2 (ix3 b s u)) = ix1 u := fun u => funext fun a => Fin.ext (by
    match a with | ⟨0, _⟩ => rfl)
  simp only [e12l, e12r, e13, val_main_v11_apply, val_main_v10_apply, val_main_v9_apply, e9, val_main_v3_apply, val_main_v0_apply,
    e0l, e0r, val_main_v2_apply, val_main_v1_apply, e1, Ideal.addf_def, Ideal.hostUnary_tanh_def]
  refine congrArg (· + x7 (ix1 (0 : Fin 1))) (Finset.sum_congr rfl fun u _ => ?_)
  rw [add_comm (val_main_v8 (F := Ideal) x1 x4 x5 (ix3 b (0 : Fin 1) u))]

end Cert.ReferenceIdeal.RefScore

end
-- ==== Proof.lean ====
/-
  Additive (Bahdanau) attention: a tiled score kernel against its whole-array reference, equal on the extended reals.

  For encoder states `H : [32, 4096, 512]`, a decoder state `h : [32, 512]`, projections `We, be`, `Wd, bd` and a
  one-unit layer `Wc, bc`, both programs form the projected decoder state `D = h · Wd + bd`, the scores

      score[b, s] = (Σ_u tanh ((Σ_e H[b,s,e] · We[e,u]) + be[u] + D[b,u]) · Wc[u]) + bc,

  the attention weights `softmax_s score[b, ·]` and the context vector `Σ_s weights[b, s] · D[b, ·]`.

  The kernel computes the scores 1024 sequence positions at a time on a 32 × 4 grid (a matrix product into a zero
  accumulator, the operands narrowed to bf16 first — the identity on extended reals —, then a sum along the lanes),
  the reference by two contractions over whole arrays with the decoder term added on the other side. The proof:
  * each grid point writes back its block of ONE function `score` of the argument arrays, the blocks tile the
    score array, so the array ends holding `score` (the tile's arithmetic read at an index; the index maps decided
    over the grid);
  * the reference's score stage is the same `score`, by commutativity of `+`; no finiteness of the inputs is used;
  * the projected decoder state is one term in both programs, and the softmax and the weighted sum are the same host
    operations in both, carried as two functions applied to equal arguments and never opened.
  The three frames are the generated frame runs (the reference's is its generated run with the results dropped), and
  the idealization rewrote no operation, so there is nothing to preserve.
-/
import proofs.«167829_j35467839930638_1_alg».proof.Defs
import proofs.«167829_j35467839930638_1_alg».proof.Proof.Gen.Kernel
import proofs.«167829_j35467839930638_1_alg».proof.Proof.Gen.Kernel.Frame
import proofs.«167829_j35467839930638_1_alg».proof.Proof.Gen.KernelIdeal
import proofs.«167829_j35467839930638_1_alg».proof.Proof.Gen.KernelIdeal.Frame
import proofs.«167829_j35467839930638_1_alg».proof.Proof.Gen.ReferenceIdeal
import proofs.«167829_j35467839930638_1_alg».proof.Proof.Gen.Pre_finite_inputs
import proofs.«167829_j35467839930638_1_alg».proof.Proof.Gen.ReferenceIdeal.Run
import proofs.«167829_j35467839930638_1_alg».proof.Proof.Gen.ReferenceIdeal.Read
import proofs.«167829_j35467839930638_1_alg».proof.Proof.KernelRun
import proofs.«167829_j35467839930638_1_alg».proof.Proof.RefScore
import proofs.«167829_j35467839930638_1_alg».proof.Proof.Tail
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both idealized programs end with the context vector at `context` and the
    attention weights at `weights` of the one `score` function of the arguments. -/
theorem algebraic : Cert.algebraic_KernelIdeal_ReferenceIdeal := by
  intro m ρ m' ρ' _ hagree
  refine ⟨fun c => Cert.Attn.context (Cert.KernelIdeal.Scores.scores m c) (Cert.KernelIdeal.Scores.decProj m c),
    fun c => Cert.Attn.weights (Cert.KernelIdeal.Scores.scores m c), Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [Cert.ReferenceIdeal.Read.val_main_v30_eq, Cert.Attn.ref_context, Cert.ReferenceIdeal.RefScore.score_eq,
      a0, a1, a2, a3, a4, a5, a6, a7]
    rfl
  · rw [Cert.ReferenceIdeal.Read.val_main_v26_eq, Cert.Attn.ref_weights, Cert.ReferenceIdeal.RefScore.score_eq,
      a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
